-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1250000 : Shape := ⟨2, ![2, 1250000]⟩
abbrev S1250000x64 : Shape := ⟨2, ![1250000, 64]⟩
abbrev S100000x128 : Shape := ⟨2, ![100000, 128]⟩
abbrev S1250000 : Shape := ⟨1, ![1250000]⟩
abbrev S100000 : Shape := ⟨1, ![100000]⟩
abbrev S128x192 : Shape := ⟨2, ![128, 192]⟩
abbrev S128 : Shape := ⟨1, ![128]⟩
abbrev S_ : Shape := ⟨0, ![]⟩

class Facts : Prop where
  bcast_S_S1250000x64 : S_.BroadcastsInDim S1250000x64 (![] : Fin 0 → Fin S1250000x64.rank)
  reducesTo_S1250000x64_S_d0_1 : S1250000x64.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S1250000 : S_.BroadcastsInDim S1250000 (![] : Fin 0 → Fin S1250000.rank)
  reducesTo_S1250000_S_d0 : S1250000.ReducesTo [0] S_
  bcast_S_S100000 : S_.BroadcastsInDim S100000 (![] : Fin 0 → Fin S100000.rank)
  reducesTo_S100000_S_d0 : S100000.ReducesTo [0] S_
  bcast_S_S128x192 : S_.BroadcastsInDim S128x192 (![] : Fin 0 → Fin S128x192.rank)
  reducesTo_S128x192_S_d0_1 : S128x192.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x192 .f32) (main_arg6 : FVec F S128 .f32) (main_v13 : IVec S_ 1) (main_v16 : IVec S100000 1) : IVec S_ 1 :=
  let main_c_5 : IVec S_ 1 := constantI S_ 1 1#1
  let main_v17 : IVec S_ 1 := (fun x v => Host.reduce IntOp.andi x v reducesTo_S100000_S_d0 h_S_) main_v16 main_c_5
  let main_v18 : IVec S_ 1 := andi main_v13 main_v17
  let main_v19 : FVec F S128x192 .f32 := Host.absf main_arg5
  let main_cst_6 : FVec F S_ .f32 := constant S_ .f32 0x7F800000#32
  let main_v20 : FVec F S128x192 .f32 := broadcastInDim S128x192 ![] bcast_S_S128x192 main_cst_6
  let main_v21 : IVec S128x192 1 := cmpf .olt main_v19 main_v20
  let main_c_7 : IVec S_ 1 := constantI S_ 1 1#1
  let main_v22 : IVec S_ 1 := (fun x v => Host.reduce IntOp.andi x v reducesTo_S128x192_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : IVec S2x1250000 32) (main_arg1 : FVec F S1250000x64 .f32) (main_arg2 : FVec F S100000x128 .f32) (main_arg3 : FVec F S1250000 .f32) (main_arg4 : FVec F S100000 .f32) (main_arg5 : FVec F S128x192 .f32) (main_arg6 : FVec F S128 .f32) : IVec S_ 1 :=
  let main_v0 : FVec F S1250000x64 .f32 := Host.absf main_arg1
  let main_cst : FVec F S_ .f32 := constant S_ .f32 0x7F800000#32
  let main_v1 : FVec F S1250000x64 .f32 := broadcastInDim S1250000x64 ![] bcast_S_S1250000x64 main_cst
  let main_v2 : IVec S1250000x64 1 := cmpf .olt main_v0 main_v1
  let main_c : IVec S_ 1 := constantI S_ 1 1#1
  let main_v3 : IVec S_ 1 := (fun x v => Host.reduce IntOp.andi x v reducesTo_S1250000x64_S_d0_1 h_S_) main_v2 main_c
  let main_v4 : FVec F S100000x128 .f32 := Host.absf main_arg2
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S1250000 .f32 := Host.absf main_arg3
  let main_cst_2 : FVec F S_ .f32 := constant S_ .f32 0x7F800000#32
  let main_v10 : FVec F S1250000 .f32 := broadcastInDim S1250000 ![] bcast_S_S1250000 main_cst_2
  let main_v11 : IVec S1250000 1 := cmpf .olt main_v9 main_v10
  let main_c_3 : IVec S_ 1 := constantI S_ 1 1#1
  let main_v12 : IVec S_ 1 := (fun x v => Host.reduce IntOp.andi x v reducesTo_S1250000_S_d0 h_S_) main_v11 main_c_3
  let main_v13 : IVec S_ 1 := andi main_v8 main_v12
  let main_v14 : FVec F S100000 .f32 := Host.absf main_arg4
  let main_cst_4 : FVec F S_ .f32 := constant S_ .f32 0x7F800000#32
  let main_v15 : FVec F S100000 .f32 := broadcastInDim S100000 ![] bcast_S_S100000 main_cst_4
  let main_v16 : IVec S100000 1 := cmpf .olt main_v14 main_v15
  fn_part1 (F := F) main_arg5 main_arg6 main_v13 main_v16
-- ==== Kernel.lean ====
abbrev S2x1250000 : Shape := ⟨2, ![2, 1250000]⟩
abbrev S1250000x64 : Shape := ⟨2, ![1250000, 64]⟩
abbrev S100000x128 : Shape := ⟨2, ![100000, 128]⟩
abbrev S1250000 : Shape := ⟨1, ![1250000]⟩
abbrev S100000 : Shape := ⟨1, ![100000]⟩
abbrev S128x192 : Shape := ⟨2, ![128, 192]⟩
abbrev S128 : Shape := ⟨1, ![128]⟩
abbrev S1250000x1 : Shape := ⟨2, ![1250000, 1]⟩
abbrev S10000x64 : Shape := ⟨2, ![10000, 64]⟩
abbrev S10000x1 : Shape := ⟨2, ![10000, 1]⟩
abbrev S1x1250000 : Shape := ⟨2, ![1, 1250000]⟩
abbrev S_ : Shape := ⟨0, ![]⟩
abbrev S100000x64 : Shape := ⟨2, ![100000, 64]⟩
abbrev S100000x1 : Shape := ⟨2, ![100000, 1]⟩
abbrev S192x128 : Shape := ⟨2, ![192, 128]⟩
abbrev S1x128 : Shape := ⟨2, ![1, 128]⟩
abbrev S5000x128 : Shape := ⟨2, ![5000, 128]⟩
abbrev S5000x64 : Shape := ⟨2, ![5000, 64]⟩
abbrev S5000x1 : Shape := ⟨2, ![5000, 1]⟩
abbrev S5000x192 : Shape := ⟨2, ![5000, 192]⟩

abbrev nBuf : Space → Nat
  | .hbm => 26
  | .vmem => 18
  | .smem => 0
  | _ => 0

abbrev bufTy : (tb : Table) → Fin (tcTables nBuf tb) → BufTy
  | .hbm, ⟨0, _⟩ => ⟨S2x1250000, .i32⟩
  | .hbm, ⟨1, _⟩ => ⟨S1250000x64, .f32⟩
  | .hbm, ⟨2, _⟩ => ⟨S100000x128, .f32⟩
  | .hbm, ⟨3, _⟩ => ⟨S1250000, .f32⟩
  | .hbm, ⟨4, _⟩ => ⟨S100000, .f32⟩
  | .hbm, ⟨5, _⟩ => ⟨S128x192, .f32⟩
  | .hbm, ⟨6, _⟩ => ⟨S128, .f32⟩
  | .hbm, ⟨7, _⟩ => ⟨S1250000x1, .f32⟩
  | .hbm, ⟨8, _⟩ => ⟨S1250000x64, .f32⟩
  | .hbm, ⟨9, _⟩ => ⟨S1x1250000, .i32⟩
  | .hbm, ⟨10, _⟩ => ⟨S1250000, .i32⟩
  | .hbm, ⟨11, _⟩ => ⟨S_, .f32⟩
  | .hbm, ⟨12, _⟩ => ⟨S100000x64, .f32⟩
  | .hbm, ⟨13, _⟩ => ⟨S1250000x1, .i32⟩
  | .hbm, ⟨14, _⟩ => ⟨S100000x64, .f32⟩
  | .hbm, ⟨15, _⟩ => ⟨S_, .f32⟩
  | .hbm, ⟨16, _⟩ => ⟨S1250000, .f32⟩
  | .hbm, ⟨17, _⟩ => ⟨S_, .f32⟩
  | .hbm, ⟨18, _⟩ => ⟨S100000, .f32⟩
  | .hbm, ⟨19, _⟩ => ⟨S1250000x1, .i32⟩
  | .hbm, ⟨20, _⟩ => ⟨S100000, .f32⟩
  | .hbm, ⟨21, _⟩ => ⟨S100000x1, .f32⟩
  | .hbm, ⟨22, _⟩ => ⟨S100000x1, .f32⟩
  | .hbm, ⟨23, _⟩ => ⟨S192x128, .f32⟩
  | .hbm, ⟨24, _⟩ => ⟨S1x128, .f32⟩
  | .hbm, ⟨25, _⟩ => ⟨S100000x128, .f32⟩
  | .local _ .vmem, ⟨0, _⟩ => ⟨S10000x64, .f32⟩
  | .local _ .vmem, ⟨1, _⟩ => ⟨S10000x64, .f32⟩
  | .local _ .vmem, ⟨2, _⟩ => ⟨S10000x1, .f32⟩
  | .local _ .vmem, ⟨3, _⟩ => ⟨S10000x1, .f32⟩
  | .local _ .vmem, ⟨4, _⟩ => ⟨S10000x64, .f32⟩
  | .local _ .vmem, ⟨5, _⟩ => ⟨S10000x64, .f32⟩
  | .local _ .vmem, ⟨6, _⟩ => ⟨S5000x128, .f32⟩
  | .local _ .vmem, ⟨7, _⟩ => ⟨S5000x128, .f32⟩
  | .local _ .vmem, ⟨8, _⟩ => ⟨S5000x64, .f32⟩
  | .local _ .vmem, ⟨9, _⟩ => ⟨S5000x64, .f32⟩
  | .local _ .vmem, ⟨10, _⟩ => ⟨S5000x1, .f32⟩
  | .local _ .vmem, ⟨11, _⟩ => ⟨S5000x1, .f32⟩
  | .local _ .vmem, ⟨12, _⟩ => ⟨S5000x1, .f32⟩
  | .local _ .vmem, ⟨13, _⟩ => ⟨S5000x1, .f32⟩
  | .local _ .vmem, ⟨14, _⟩ => ⟨S192x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | _, _ => ⟨S2x1250000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S192x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  shapeCasts_S1250000_S1250000x1 : S1250000.ShapeCasts S1250000x1
  inb_S10000x64_S10000x64_0_0 : ∀ a, (![0, 0] : Fin 2 → Nat) a + S10000x64.size a ≤ S10000x64.size a
  h_S10000x64 : 0 < S10000x64.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  slices_S2x1250000_S1x1250000_0_0 : S2x1250000.Slices ![0, 0] S1x1250000
  shapeCasts_S1x1250000_S1250000 : S1x1250000.ShapeCasts S1250000
  bcast_S_S100000x64 : S_.BroadcastsInDim S100000x64 (![] : Fin 0 → Fin S100000x64.rank)
  bcast_S1250000_S1250000x1_0 : S1250000.BroadcastsInDim S1250000x1 (![0] : Fin 1 → Fin S1250000x1.rank)
  bcast_S_S1250000 : S_.BroadcastsInDim S1250000 (![] : Fin 0 → Fin S1250000.rank)
  bcast_S_S100000 : S_.BroadcastsInDim S100000 (![] : Fin 0 → Fin S100000.rank)
  shapeCasts_S100000_S100000x1 : S100000.ShapeCasts S100000x1
  transposes_S128x192_S192x128_1_0 : S128x192.Transposes [1, 0] S192x128
  shapeCasts_S128_S1x128 : S128.ShapeCasts S1x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S5000x1_S5000x64 : S5000x1.Broadcasts S5000x64
  inb_S5000x128_S5000x128_0_0 : ∀ a, (![0, 0] : Fin 2 → Nat) a + S5000x128.size a ≤ S5000x128.size a
  h_S5000x128 : 0 < S5000x128.numel
  concatenates_S5000x128_S5000x64_S5000x192_d1 : Shape.Concatenates [S5000x128, S5000x64] S5000x192 1
  bitsLt_bf16_f32 : FTy.bits .bf16 < FTy.bits .f32
  inb_S192x128_S192x128_0_0 : ∀ a, (![0, 0] : Fin 2 → Nat) a + S192x128.size a ≤ S192x128.size a
  h_S192x128 : 0 < S192x128.numel
  shapeCasts_S192x128_S192x128 : S192x128.ShapeCasts S192x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  broadcasts_S5000x1_S5000x128 : S5000x1.Broadcasts S5000x128
  scatter_S100000x64_S1250000x1_S1250000x64_1_0_0_1_wf : ScatterDims.WF S100000x64 S1250000x1 S1250000x64 [1] [0] [0] 1
  scatter_S100000_S1250000x1_S1250000_n_0_0_1_wf : ScatterDims.WF S100000 S1250000x1 S1250000 [] [0] [0] 1
  dot_S5000x192_S192x128_S5000x128_1_0_0_1_n_n_wf : DotDims.WF S5000x192 S192x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S1250000x64.size a
  hwx0_0 : ∀ i : grid0.Coords, EltTy.bits .f32 = 32 ∨ (Rect.block (s := S1250000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S1250000x1.size a
  hwx0_1 : ∀ i : grid0.Coords, EltTy.bits .f32 = 32 ∨ (Rect.block (s := S1250000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S1250000x64.size a
  hwx0_2 : ∀ i : grid0.Coords, EltTy.bits .f32 = 32 ∨ (Rect.block (s := S1250000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S100000x1.size a
  hwx1_3 : ∀ i : grid1.Coords, EltTy.bits .f32 = 32 ∨ (Rect.block (s := S100000x1) S5000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S192x128.size a ≤ S192x128.size a
  hwx1_4 : ∀ i : grid1.Coords, EltTy.bits .f32 = 32 ∨ (Rect.block (s := S192x128) S192x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)

variable [Facts₀]

def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def dot_S5000x192_S192x128_S5000x128_1_0_0_1_n_n : DotDims S5000x192 S192x128 S5000x128 where
  lhsContracting := [1]
  rhsContracting := [0]
  lhsNonContracting := [0]
  rhsNonContracting := [1]
  lhsBatch := []
  rhsBatch := []
  wf := dot_S5000x192_S192x128_S5000x128_1_0_0_1_n_n_wf

abbrev win0_0 : Pipeline.Window sig grid0 :=
  Pipeline.Window.ofSpec (Memref.whole main_arg1) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg2) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v12) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v13) S192x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v14) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v15) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S2x1250000 : Shape := ⟨2, ![2, 1250000]⟩
abbrev S1250000x64 : Shape := ⟨2, ![1250000, 64]⟩
abbrev S100000x128 : Shape := ⟨2, ![100000, 128]⟩
abbrev S1250000 : Shape := ⟨1, ![1250000]⟩
abbrev S100000 : Shape := ⟨1, ![100000]⟩
abbrev S128x192 : Shape := ⟨2, ![128, 192]⟩
abbrev S128 : Shape := ⟨1, ![128]⟩
abbrev S1250000x1 : Shape := ⟨2, ![1250000, 1]⟩
abbrev S1x1250000 : Shape := ⟨2, ![1, 1250000]⟩
abbrev S_ : Shape := ⟨0, ![]⟩
abbrev S100000x64 : Shape := ⟨2, ![100000, 64]⟩
abbrev S100000x1 : Shape := ⟨2, ![100000, 1]⟩
abbrev S100000x192 : Shape := ⟨2, ![100000, 192]⟩
abbrev S192x128 : Shape := ⟨2, ![192, 128]⟩
abbrev S1x128 : Shape := ⟨2, ![1, 128]⟩

abbrev nBuf : Space → Nat
  | .hbm => 40
  | .vmem => 0
  | .smem => 0
  | _ => 0

abbrev bufTy : (tb : Table) → Fin (tcTables nBuf tb) → BufTy
  | .hbm, ⟨0, _⟩ => ⟨S2x1250000, .i32⟩
  | .hbm, ⟨1, _⟩ => ⟨S1250000x64, .f32⟩
  | .hbm, ⟨2, _⟩ => ⟨S100000x128, .f32⟩
  | .hbm, ⟨3, _⟩ => ⟨S1250000, .f32⟩
  | .hbm, ⟨4, _⟩ => ⟨S100000, .f32⟩
  | .hbm, ⟨5, _⟩ => ⟨S128x192, .f32⟩
  | .hbm, ⟨6, _⟩ => ⟨S128, .f32⟩
  | .hbm, ⟨7, _⟩ => ⟨S1250000x1, .f32⟩
  | .hbm, ⟨8, _⟩ => ⟨S1250000x64, .f32⟩
  | .hbm, ⟨9, _⟩ => ⟨S1250000x64, .f32⟩
  | .hbm, ⟨10, _⟩ => ⟨S1x1250000, .i32⟩
  | .hbm, ⟨11, _⟩ => ⟨S1250000, .i32⟩
  | .hbm, ⟨12, _⟩ => ⟨S_, .f32⟩
  | .hbm, ⟨13, _⟩ => ⟨S100000x64, .f32⟩
  | .hbm, ⟨14, _⟩ => ⟨S1250000x1, .i32⟩
  | .hbm, ⟨15, _⟩ => ⟨S100000x64, .f32⟩
  | .hbm, ⟨16, _⟩ => ⟨S_, .f32⟩
  | .hbm, ⟨17, _⟩ => ⟨S1250000, .f32⟩
  | .hbm, ⟨18, _⟩ => ⟨S_, .f32⟩
  | .hbm, ⟨19, _⟩ => ⟨S100000, .f32⟩
  | .hbm, ⟨20, _⟩ => ⟨S1250000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S100000x64, .f32⟩
  | .hbm, ⟨27, _⟩ => ⟨S100000x64, .f32⟩
  | .hbm, ⟨28, _⟩ => ⟨S100000x192, .f32⟩
  | .hbm, ⟨29, _⟩ => ⟨S192x128, .f32⟩
  | .hbm, ⟨30, _⟩ => ⟨S100000x128, .f32⟩
  | .hbm, ⟨31, _⟩ => ⟨S1x128, .f32⟩
  | .hbm, ⟨32, _⟩ => ⟨S100000x128, .f32⟩
  | .hbm, ⟨33, _⟩ => ⟨S100000x128, .f32⟩
  | .hbm, ⟨34, _⟩ => ⟨S_, .f32⟩
  | .hbm, ⟨35, _⟩ => ⟨S100000x128, .f32⟩
  | .hbm, ⟨36, _⟩ => ⟨S100000x128, .f32⟩
  | .hbm, ⟨37, _⟩ => ⟨S100000x1, .f32⟩
  | .hbm, ⟨38, _⟩ => ⟨S100000x128, .f32⟩
  | .hbm, ⟨39, _⟩ => ⟨S100000x128, .f32⟩
  | _, _ => ⟨S2x1250000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call0_cst : Ref sig .tc := ⟨.hbm, 34, rfl⟩
abbrev main_call0_v0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]

class Facts₀ : Prop where
  bcast_S1250000_S1250000x1_0 : S1250000.BroadcastsInDim S1250000x1 (![0] : Fin 1 → Fin S1250000x1.rank)
  bcast_S1250000x1_S1250000x64_0_1 : S1250000x1.BroadcastsInDim S1250000x64 (![0, 1] : Fin 2 → Fin S1250000x64.rank)
  slices_S2x1250000_S1x1250000_0_0 : S2x1250000.Slices ![0, 0] S1x1250000
  shapeCasts_S1x1250000_S1250000 : S1x1250000.ShapeCasts S1250000
  bcast_S_S100000x64 : S_.BroadcastsInDim S100000x64 (![] : Fin 0 → Fin S100000x64.rank)
  bcast_S_S1250000 : S_.BroadcastsInDim S1250000 (![] : Fin 0 → Fin S1250000.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  concatenates_S100000x128_S100000x64_S100000x192_d1 : Shape.Concatenates [S100000x128, S100000x64] S100000x192 1
  transposes_S128x192_S192x128_1_0 : S128x192.Transposes [1, 0] S192x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  scatter_S100000x64_S1250000x1_S1250000x64_1_0_0_1_wf : ScatterDims.WF S100000x64 S1250000x1 S1250000x64 [1] [0] [0] 1
  scatter_S100000_S1250000x1_S1250000_n_0_0_1_wf : ScatterDims.WF S100000 S1250000x1 S1250000 [] [0] [0] 1
  dot_S100000x192_S192x128_S100000x128_1_0_0_1_n_n_wf : DotDims.WF S100000x192 S192x128 S100000x128 [1] [0] [0] [1] [] []

variable [Facts₀]

def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def dot_S100000x192_S192x128_S100000x128_1_0_0_1_n_n : DotDims S100000x192 S192x128 S100000x128 where
  lhsContracting := [1]
  rhsContracting := [0]
  lhsNonContracting := [0]
  rhsNonContracting := [1]
  lhsBatch := []
  rhsBatch := []
  wf := dot_S100000x192_S192x128_S100000x128_1_0_0_1_n_n_wf

class Facts : Prop extends Facts₀ where

variable [Facts]
-- ==== Proof.RunAll.lean ====
/-
  The idealized kernel's whole run with its RESULT named.

  The program is four stretches in a row: a reshape on the host, the edge-weighting region, the host's two
  scatter-adds and layout operations, and the combining region. The generated frame proves the run over these
  four segments and reads, at the end, only the argument arrays. Here the same launch is read at EVERY buffer
  the thread state holds (`run_all`): each ends at the last boundary's contents. In particular the result
  buffer ends at what the combining region's write-backs leave of it, and the arguments end as launched
  (`run_out`).
-/
import proofs.«167263_j47880295416397_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and every buffer the thread state
    holds ends at the last boundary's contents `W4`: the launch over the four segments, the last thread state
    read against the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The run with the result buffer named: it ends at what the combining region's write-backs leave of its array
    (`arrAt 6` after all twenty points), from that region's entry contents `V3`; the arguments end as launched. -/
theorem run_out : θ_run defs (onTc (τ := τ) (main (F := F))) ⟨m, fun _ => 0, ρ⟩ (fun r => ∀ c : Dev nD,
      r.2.mem ((c.tc : Thread nD τ).loc main_v15) = (dat1 (V3 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
      ⟨(h c _ (mem_uc main_v15 (by decide))).trans (W4_arr m ρ c 6),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)
    (run_all m ρ)

end Cert.KernelIdeal.Whole

end
-- ==== Proof.LibColumn.lean ====
/-
  A column broadcast over many columns, read at an index: an `[a, 1]` array broadcast to `[a, b]` reads, at
  `(p, c)`, the column's entry of row `p`.
-/
import Idealize.ShloMosaic.Lib.Pipeline.Value
import Idealize.ShloMosaic.Lib.ValueIdx

namespace Cert.LibColumn

open Idealize.ShloMosaic Idealize.ShloMosaic.ValueIdx

variable {α : Type}

/-- An `[a, 1]` array broadcast to `[a, b]` reads, at `(p, c)`, the operand at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.EdgeWeights.lean ====
/-
  The edge-weighting region, as one whole-array function.

  Its grid has 125 points; point `t` reads rows `10000·t … 10000·t + 9999` of the edge features (64 columns) and of
  the edge-weight column, multiplies each feature row by its weight, and writes the block back to the same rows of the
  result. Every row belongs to exactly one point (`r / 10000`), so after the region the result array is, index by
  index, `feature (e, f) · weight (e, 0)` (`weighted`), whatever the region found in it.
-/
import proofs.«167263_j47880295416397_2_alg».proof.Proof.Gen.KernelIdeal.Frame
import proofs.«167263_j47880295416397_2_alg».proof.Proof.LibColumn
import Idealize.ShloMosaic.Lib.Pipeline.Value
import Idealize.ShloMosaic.Lib.ValueIdx

set_option maxRecDepth 16384

noncomputable section

namespace Cert.KernelIdeal.Edge

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem offs_zero : (![0, 0] : Fin 2 → Nat) = fun _ => 0 := funext fun a => by fin_cases a <;> rfl

/-- Each edge's feature row times that edge's weight. -/
def weighted (ea : S1250000x64.Idx → Elt Ideal .f32) (ew : S1250000x1.Idx → Elt Ideal .f32) : S1250000x64.Idx → Elt Ideal .f32 :=
  fun i => ea i * ew (ix2 (i 0) (0 : Fin 1))

/-- The body's stored value at `(p, q)`: the feature block's entry times the weight column's entry of row `p`. -/
theorem stored_at (x0 : Vec Ideal S10000x64 .f32) (x1 : Vec Ideal S10000x1 .f32) (p : Fin 10000) (q : Fin 64) :
    k0_pay1 x0 x1 (ix2 p q) = x0 (ix2 p q) * x1 (ix2 p (0 : Fin 1)) := by
  unfold k0_pay1
  rw [mulf_apply, shapeCast_self, shapeCast_self, Cert.LibColumn.broadcastTo_a1_ab_apply]

/-- The same at an index not yet split into its coordinates. -/
theorem stored_apply (x0 : Vec Ideal S10000x64 .f32) (x1 : Vec Ideal S10000x1 .f32) (j : S10000x64.Idx) :
    k0_pay1 x0 x1 j = x0 j * x1 (ix2 (j 0) (0 : Fin 1)) := by
  obtain ⟨p, q, rfl⟩ : ∃ (p : Fin 10000) (q : Fin 64), j = ix2 p q := ⟨j 0, j 1, eq_ix2 j⟩
  exact stored_at x0 x1 p q

/-- A product of one entry of each array, at indices that are an index of the result and its row's first column, is
    `weighted` there. -/
theorem weighted_of_eq (ea : S1250000x64.Idx → Elt Ideal .f32) (ew : S1250000x1.Idx → Elt Ideal .f32)
    (i0 i2 : S1250000x64.Idx) (i1 : S1250000x1.Idx) (h0 : i0 = i2) (h1 : i1 = ix2 (i2 0) (0 : Fin 1)) :
    ea i0 * ew i1 = weighted ea ew i2 := by
  subst h0 h1; rfl

/-- The printed index maps over the grid: all three windows sit at block row `t`, block column `0`. -/
theorem index_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point `t` writes back is block `t` of `weighted` of the arrays as the region finds them. -/
theorem flushed_eq (c : Dev nD) (t : Fin cfg0.N) :
    (dat0 V c).flushed 2 t = ((cfg0.win 2).blk t).view.read (Elt Ideal) (weighted (V c main_arg1) (V c main_v0)) := by
  show (cfg0.win 2).cut (grid0.coords t) ((dat0 V c).after 2 t) = _
  rw [after0_2]
  unfold out0_2
  rw [View.canon_unit_zero offs_zero]
  simp only [View.ld_unit_zero (S := S10000x64) offs_zero, View.ld_unit_zero (S := S10000x1) offs_zero]
  obtain ⟨e0, e1, e2, e3, e4, e5⟩ := index_facts t
  funext j
  refine (stored_apply (iblk0 V c 0 t) (iblk0 V c 1 t) j).trans ?_
  have h0 : ((cfg0.win 0).blk t).view.emb j = ((cfg0.win 2).blk t).view.emb j := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 64 + 1 * (j 1).val = win0_2.index t (1 : Fin 2) * 64 + 1 * (j 1).val; omega
  have h1 : ((cfg0.win 1).blk t).view.emb (ix2 (j 0) (0 : Fin 1)) = ix2 ((((cfg0.win 2).blk t).view.emb j) 0) (0 : Fin 1) := by
    funext a; apply Fin.ext
    match a with
    | ⟨0, _⟩ => show win0_1.index t (0 : Fin 2) * 10000 + 1 * (j 0).val = win0_2.index t (0 : Fin 2) * 10000 + 1 * (j 0).val; omega
    | ⟨1, _⟩ => show win0_1.index t (1 : Fin 2) * 1 + 1 * 0 = 0; omega
  exact weighted_of_eq (V c main_arg1) (V c main_v0) (((cfg0.win 0).blk t).view.emb j) (((cfg0.win 2).blk t).view.emb j)
    (((cfg0.win 1).blk t).view.emb (ix2 (j 0) (0 : Fin 1))) h0 h1

/-- An index of the result array is in point `t`'s block iff each coordinate is in the block's range on its axis. -/
theorem mem_blk (t : Fin cfg0.N) (i : S1250000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v1).slice (win0_2.rect t)).set ↔ _
  rw [View.set_slice_whole, Rect.mem_set_unit]
  exact Iff.rfl

/-- Every index of the result array is in the block of the point its row divides to. -/
theorem cover (i : S1250000x64.Idx) : ∃ t : Fin cfg0.N, (cfg0.win 2).flush t = true ∧ i ∈ ((cfg0.win 2).blk t).view.set := by
  have hi0 : (i 0).val < 1250000 := (i 0).isLt
  have hi1 : (i 1).val < 64 := (i 1).isLt
  have hN : cfg0.N = 125 := N_0
  have ht : (i 0).val / 10000 < cfg0.N := by rw [hN]; omega
  obtain ⟨-, -, -, -, e4, e5⟩ := index_facts ⟨(i 0).val / 10000, ht⟩
  refine ⟨⟨(i 0).val / 10000, ht⟩, flush0_2 _, ?_⟩
  rw [mem_blk]
  intro a
  match a with
  | ⟨0, _⟩ =>
    show win0_2.index ⟨(i 0).val / 10000, ht⟩ (0 : Fin 2) * 10000 ≤ (i 0).val ∧ (i 0).val < win0_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, ht⟩ (1 : Fin 2) * 64 ≤ (i 1).val ∧ (i 1).val < win0_2.index ⟨(i 0).val / 10000, ht⟩ (1 : Fin 2) * 64 + 64
    rw [e5]; omega

/-- After the region its result array IS `weighted` of the feature array and the weight column it was entered with. -/
theorem final (c : Dev nD) : (dat0 V c).arrAt 2 cfg0.N = weighted (V c main_arg1) (V c main_v0) :=
  (dat0 V c).arrAt_eq_of_cover 2 (weighted (V c main_arg1) (V c main_v0)) (fun t _ => flushed_eq V c t) cover

end Cert.KernelIdeal.Edge

end
-- ==== Proof.Between.lean ====
/-
  What the two regions are entered with, read off the host's operations.

  Before the edge-weighting region the host only reshapes the edge weights into a column. Between the regions it
  takes the first row of the edge index as each edge's target node, scatter-adds the weighted edge features and a
  vector of ones over the targets (`segSum`, `segCnt`: per node, the sum of its incoming weighted features and the
  number of its incoming edges), reshapes the count and the node weights into columns, transposes the weight matrix
  and reshapes the bias into a row. No host operation and no region writes an argument, so each argument is read
  back to its launch contents.
-/
import proofs.«167263_j47880295416397_2_alg».proof.Proof.Gen.KernelIdeal.Frame
import Idealize.ShloMosaic.Lib.StableHlo.Run

set_option maxRecDepth 16384

noncomputable section

namespace Cert.KernelIdeal.Between

open Cert.KernelIdeal Cert.KernelIdeal.Gen Idealize.ShloMosaic Idealize.ShloMosaic.TcCoe Idealize.SL.Sem
open Idealize.ShloMosaic.StableHlo

variable {F : FTy → Type} [FloatOps F]

/-- Each edge's target node: the first row of the edge index, as a column of index vectors. -/
def targets (ei : (⟨S2x1250000, .i32⟩ : BufTy).Contents (Elt F)) : (⟨S1250000x1, .i32⟩ : BufTy).Contents (Elt F) :=
  broadcastInDim S1250000x1 ![0] bcast_S1250000_S1250000x1_0
    (shapeCast _ (extractStridedSlice S1x1250000 ![0, 0] ei slices_S2x1250000_S1x1250000_0_0) shapeCasts_S1x1250000_S1250000)

/-- Per node, the sum of the feature rows of the edges that point at it. -/
def segSum (ei : (⟨S2x1250000, .i32⟩ : BufTy).Contents (Elt F)) (ea : (⟨S1250000x64, .f32⟩ : BufTy).Contents (Elt F)) :
    (⟨S100000x64, .f32⟩ : BufTy).Contents (Elt F) :=
  Host.scatterAdd scatter_S100000x64_S1250000x1_S1250000x64_1_0_0_1
    (broadcastInDim S100000x64 ![] bcast_S_S100000x64 (constant S_ .f32 0x00000000#32)) (targets ei) ea

/-- Per node, the number of edges that point at it: ones summed over the targets. -/
def segCnt (ei : (⟨S2x1250000, .i32⟩ : BufTy).Contents (Elt F)) : (⟨S100000, .f32⟩ : BufTy).Contents (Elt F) :=
  Host.scatterAdd scatter_S100000_S1250000x1_S1250000_n_0_0_1
    (broadcastInDim S100000 ![] bcast_S_S100000 (constant S_ .f32 0x00000000#32)) (targets ei)
    (broadcastInDim S1250000 ![] bcast_S_S1250000 (constant S_ .f32 0x3F800000#32))

variable (m : (ℓ : Loc nD τ sig) → Buf (Elt F) ℓ) (ρ : Dev nD → PrngReg)

/-! ## The first region's entry -/

theorem V1_arg1 (c : Dev nD) : V1 m ρ c main_arg1 = m ((c : Thread nD τ).loc main_arg1) := by
  show StableHlo.after hostOps0 (W0 m ρ c) (Proc.devRef .tc main_arg1) = _
  after_results

theorem V1_v0 (c : Dev nD) :
    V1 m ρ c main_v0 = shapeCast S1250000x1 (m ((c : Thread nD τ).loc main_arg3)) shapeCasts_S1250000_S1250000x1 := by
  show StableHlo.after hostOps0 (W0 m ρ c) (Proc.devRef .tc main_v0) = _
  after_results
  rfl

/-! ## The first region's exit: the arguments as launched -/

theorem W2_arg0 (c : Dev nD) : W2 m ρ c (Proc.devRef .tc main_arg0) = m ((c : Thread nD τ).loc main_arg0) :=
  (W2_of_ne m ρ c main_arg0 (by decide)).trans (by
    show StableHlo.after hostOps0 (W0 m ρ c) (Proc.devRef .tc main_arg0) = _
    after_results)
theorem W2_arg2 (c : Dev nD) : W2 m ρ c (Proc.devRef .tc main_arg2) = m ((c : Thread nD τ).loc main_arg2) :=
  (W2_of_ne m ρ c main_arg2 (by decide)).trans (by
    show StableHlo.after hostOps0 (W0 m ρ c) (Proc.devRef .tc main_arg2) = _
    after_results)
theorem W2_arg4 (c : Dev nD) : W2 m ρ c (Proc.devRef .tc main_arg4) = m ((c : Thread nD τ).loc main_arg4) :=
  (W2_of_ne m ρ c main_arg4 (by decide)).trans (by
    show StableHlo.after hostOps0 (W0 m ρ c) (Proc.devRef .tc main_arg4) = _
    after_results)
theorem W2_arg5 (c : Dev nD) : W2 m ρ c (Proc.devRef .tc main_arg5) = m ((c : Thread nD τ).loc main_arg5) :=
  (W2_of_ne m ρ c main_arg5 (by decide)).trans (by
    show StableHlo.after hostOps0 (W0 m ρ c) (Proc.devRef .tc main_arg5) = _
    after_results)
theorem W2_arg6 (c : Dev nD) : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results)
/-- The weighted edge features are what the first region's write-backs leave. -/
theorem W2_v1 (c : Dev nD) : W2 m ρ c (Proc.devRef .tc main_v1) = (dat0 (V1 m ρ) c).arrAt 2 cfg0.N :=
  W2_arr m ρ c 2

/-! ## The second region's entry -/

theorem V3_arg2 (c : Dev nD) : V3 m ρ c main_arg2 = m ((c : Thread nD τ).loc main_arg2) := by
  show StableHlo.after hostOps1 (W2 m ρ c) (Proc.devRef .tc main_arg2) = _
  after_results
  exact W2_arg2 m ρ c

theorem V3_v6 (c : Dev nD) :
    V3 m ρ c main_v6 = segSum (m ((c : Thread nD τ).loc main_arg0)) ((dat0 (V1 m ρ) c).arrAt 2 cfg0.N) := by
  show StableHlo.after hostOps1 (W2 m ρ c) (Proc.devRef .tc main_v6) = _
  after_results
  rw [W2_arg0, W2_v1]
  rfl

theorem V3_v11 (c : Dev nD) :
    V3 m ρ c main_v11 = shapeCast S100000x1 (segCnt (m ((c : Thread nD τ).loc main_arg0))) shapeCasts_S100000_S100000x1 := by
  show StableHlo.after hostOps1 (W2 m ρ c) (Proc.devRef .tc main_v11) = _
  after_results
  rw [W2_arg0]
  rfl

theorem V3_v12 (c : Dev nD) :
    V3 m ρ c main_v12 = shapeCast S100000x1 (m ((c : Thread nD τ).loc main_arg4)) shapeCasts_S100000_S100000x1 := by
  show StableHlo.after hostOps1 (W2 m ρ c) (Proc.devRef .tc main_v12) = _
  after_results
  rw [W2_arg4]
  rfl

theorem V3_v13 (c : Dev nD) :
    V3 m ρ c main_v13 = transpose S192x128 [1, 0] (m ((c : Thread nD τ).loc main_arg5)) transposes_S128x192_S192x128_1_0 := by
  show StableHlo.after hostOps1 (W2 m ρ c) (Proc.devRef .tc main_v13) = _
  after_results
  rw [W2_arg5]

theorem V3_v14 (c : Dev nD) :
    V3 m ρ c main_v14 = shapeCast S1x128 (m ((c : Thread nD τ).loc main_arg6)) shapeCasts_S128_S1x128 := by
  show StableHlo.after hostOps1 (W2 m ρ c) (Proc.devRef .tc main_v14) = _
  after_results
  rw [W2_arg6]
  rfl

end Cert.KernelIdeal.Between

end
-- ==== Proof.Spec.lean ====
/-
  The layer's result as ONE function of its arrays, index by index, on the extended reals.

  Row `n` of the layer's input is the node's own 128 attributes followed by the 64 entries of its mean incoming
  edge feature: the weighted edge features summed over the edges that point at `n` (`seg`), each divided by the
  larger of the number of such edges (`cnt`) and one. The result at `(n, o)` is that row's product with column
  `o` of the transposed weight matrix, plus the bias entry `o`, clamped below at zero, times the node's weight.
-/
import Idealize.ShloMosaic.PureOps.Ideal
import Idealize.ShloMosaic.Lib.ValueIdx

noncomputable section

namespace Cert.Sage

open Idealize.ShloMosaic Idealize.ShloMosaic.ValueIdx

/-- The f32 literals `1.0` and `0.0`, kept as their words: the same words on both sides are never evaluated. -/
abbrev one : EReal := Ideal.ofBits .f32 0x3F800000#32
abbrev zero : EReal := Ideal.ofBits .f32 0x00000000#32

/-- Entry `k` of node `n`'s input row: its attribute `k` below column 128, and from there on entry `k - 128` of its
    mean edge feature, the summed features over the edge count clamped below at one. -/
def hrow (attr : (⟨2, ![100000, 128]⟩ : Shape).Idx → EReal) (seg : (⟨2, ![100000, 64]⟩ : Shape).Idx → EReal)
    (cnt : (⟨1, ![100000]⟩ : Shape).Idx → EReal) (n : Fin 100000) (k : Fin 192) : EReal :=
  if h : k.val < 128 then attr (ix2 n ⟨k.val, h⟩)
  else Ideal.div (seg (ix2 n ⟨k.val - 128, by have := k.isLt; omega⟩)) (max (cnt (ix1 n)) one)

/-- The layer's result at `(n, o)`: `max (∑ₖ row n k · wt k o + b o) 0 · nw n`. -/
def G (attr : (⟨2, ![100000, 128]⟩ : Shape).Idx → EReal) (seg : (⟨2, ![100000, 64]⟩ : Shape).Idx → EReal)
    (cnt : (⟨1, ![100000]⟩ : Shape).Idx → EReal) (nw : (⟨1, ![100000]⟩ : Shape).Idx → EReal)
    (wt : (⟨2, ![192, 128]⟩ : Shape).Idx → EReal) (b : (⟨1, ![128]⟩ : Shape).Idx → EReal) :
    (⟨2, ![100000, 128]⟩ : Shape).Idx → EReal := fun i =>
  max ((∑ k : Fin 192, hrow attr seg cnt (i 0) k * wt (ix2 k (i 1))) + b (ix1 (i 1))) zero * nw (ix1 (i 0))

end Cert.Sage

end
-- ==== Proof.LibConcat2.lean ====
/-
  A concatenation of TWO arrays along the last axis, read at an index: a column below the first piece's width
  comes from the first piece at that column, a column at or above it from the second piece at the column less that
  width. Stated at rank 3 (pieces `[n0, n1, m1]` and `[n0, n1, m2]`) and at rank 2 (pieces `[n0, m1]` and
  `[n0, m2]`), with every index written by its coordinates.
-/
import Idealize.ShloMosaic.Lib.Pipeline.Value
import Idealize.ShloMosaic.Lib.ValueIdx

namespace Cert.LibConcat2

open Idealize.ShloMosaic Idealize.ShloMosaic.ValueIdx

variable {α : Type}

/-- Rank 3, a column of the first piece. -/
theorem last3_left {n0 n1 m1 m2 m : ℕ} (x : (⟨3, ![n0, n1, m1]⟩ : Shape).Idx → α) (y : (⟨3, ![n0, n1, m2]⟩ : Shape).Idx → α)
    (h : Shape.Concatenates [(⟨3, ![n0, n1, m1]⟩ : Shape), ⟨3, ![n0, n1, m2]⟩] ⟨3, ![n0, n1, m]⟩ 2)
    (b : Fin n0) (i : Fin n1) (e : Fin m) (he : e.val < m1) :
    concatenate ⟨3, ![n0, n1, m]⟩ 2 [⟨⟨3, ![n0, n1, m1]⟩, x⟩, ⟨⟨3, ![n0, n1, m2]⟩, y⟩] h (ix3 b i e)
      = x (ix3 b i ⟨e.val, he⟩) :=
  concatenate_apply_piece (t := ⟨3, ![n0, n1, m]⟩) (2 : Fin 3) [⟨⟨3, ![n0, n1, m1]⟩, x⟩, ⟨⟨3, ![n0, n1, m2]⟩, y⟩] h (ix3 b i e) 0 Nat.zero_lt_two _ x rfl rfl 0 rfl (ix3 b i ⟨e.val, he⟩)
    (fun c hc => by
      match c with
      | ⟨0, _⟩ => rfl
      | ⟨1, _⟩ => rfl
      | ⟨2, _⟩ => exact absurd rfl hc)
    (Nat.zero_add _)

/-- Rank 3, a column of the second piece. -/
theorem last3_right {n0 n1 m1 m2 m : ℕ} (x : (⟨3, ![n0, n1, m1]⟩ : Shape).Idx → α) (y : (⟨3, ![n0, n1, m2]⟩ : Shape).Idx → α)
    (h : Shape.Concatenates [(⟨3, ![n0, n1, m1]⟩ : Shape), ⟨3, ![n0, n1, m2]⟩] ⟨3, ![n0, n1, m]⟩ 2)
    (b : Fin n0) (i : Fin n1) (e : Fin m) (he : m1 ≤ e.val) (he' : e.val - m1 < m2) :
    concatenate ⟨3, ![n0, n1, m]⟩ 2 [⟨⟨3, ![n0, n1, m1]⟩, x⟩, ⟨⟨3, ![n0, n1, m2]⟩, y⟩] h (ix3 b i e)
      = y (ix3 b i ⟨e.val - m1, he'⟩) :=
  concatenate_apply_piece (t := ⟨3, ![n0, n1, m]⟩) (2 : Fin 3) [⟨⟨3, ![n0, n1, m1]⟩, x⟩, ⟨⟨3, ![n0, n1, m2]⟩, y⟩] h (ix3 b i e) 1 Nat.one_lt_two _ y rfl rfl m1 (by simp) (ix3 b i ⟨e.val - m1, he'⟩)
    (fun c hc => by
      match c with
      | ⟨0, _⟩ => rfl
      | ⟨1, _⟩ => rfl
      | ⟨2, _⟩ => exact absurd rfl hc)
    (by show m1 + (e.val - m1) = e.val; omega)

/-- Rank 2, a column of the first piece. -/
theorem last2_left {n0 m1 m2 m : ℕ} (x : (⟨2, ![n0, m1]⟩ : Shape).Idx → α) (y : (⟨2, ![n0, m2]⟩ : Shape).Idx → α)
    (h : Shape.Concatenates [(⟨2, ![n0, m1]⟩ : Shape), ⟨2, ![n0, m2]⟩] ⟨2, ![n0, m]⟩ 1)
    (i : Fin n0) (e : Fin m) (he : e.val < m1) :
    concatenate ⟨2, ![n0, m]⟩ 1 [⟨⟨2, ![n0, m1]⟩, x⟩, ⟨⟨2, ![n0, m2]⟩, y⟩] h (ix2 i e)
      = x (ix2 i ⟨e.val, he⟩) :=
  concatenate_apply_piece (t := ⟨2, ![n0, m]⟩) (1 : Fin 2) [⟨⟨2, ![n0, m1]⟩, x⟩, ⟨⟨2, ![n0, m2]⟩, y⟩] h (ix2 i e) 0 Nat.zero_lt_two _ x rfl rfl 0 rfl (ix2 i ⟨e.val, he⟩)
    (fun c hc => by
      match c with
      | ⟨0, _⟩ => rfl
      | ⟨1, _⟩ => exact absurd rfl hc)
    (Nat.zero_add _)

/-- Rank 2, a column of the second piece. -/
theorem last2_right {n0 m1 m2 m : ℕ} (x : (⟨2, ![n0, m1]⟩ : Shape).Idx → α) (y : (⟨2, ![n0, m2]⟩ : Shape).Idx → α)
    (h : Shape.Concatenates [(⟨2, ![n0, m1]⟩ : Shape), ⟨2, ![n0, m2]⟩] ⟨2, ![n0, m]⟩ 1)
    (i : Fin n0) (e : Fin m) (he : m1 ≤ e.val) (he' : e.val - m1 < m2) :
    concatenate ⟨2, ![n0, m]⟩ 1 [⟨⟨2, ![n0, m1]⟩, x⟩, ⟨⟨2, ![n0, m2]⟩, y⟩] h (ix2 i e)
      = y (ix2 i ⟨e.val - m1, he'⟩) :=
  concatenate_apply_piece (t := ⟨2, ![n0, m]⟩) (1 : Fin 2) [⟨⟨2, ![n0, m1]⟩, x⟩, ⟨⟨2, ![n0, m2]⟩, y⟩] h (ix2 i e) 1 Nat.one_lt_two _ y rfl rfl m1 (by simp) (ix2 i ⟨e.val - m1, he'⟩)
    (fun c hc => by
      match c with
      | ⟨0, _⟩ => rfl
      | ⟨1, _⟩ => exact absurd rfl hc)
    (by show m1 + (e.val - m1) = e.val; omega)

end Cert.LibConcat2
-- ==== Proof.CombineBody.lean ====
/-
  The combining region's stored value at an index, on the extended reals.

  The body takes a block of 5000 nodes: their attributes (128 columns), their summed incoming edge features (64
  columns), the incoming edge count and the node weight (one column each), the transposed weight matrix (192 × 128) and
  the bias row. It clamps the count below at one, divides the summed features by it, joins attributes and mean
  features into rows of 192 entries, multiplies by the transposed weights (the change of format before the product is
  the identity here), adds the bias row, clamps below at zero and scales each row by its node's weight. Read at
  `(p, o)` that is `max (∑ₖ row p k · wt (k, o) + bias (0, o)) 0 · nw (p, 0)`.
-/
import proofs.«167263_j47880295416397_2_alg».proof.Proof.Gen.KernelIdeal.Skeleton
import proofs.«167263_j47880295416397_2_alg».proof.Proof.Spec
import proofs.«167263_j47880295416397_2_alg».proof.Proof.LibColumn
import proofs.«167263_j47880295416397_2_alg».proof.Proof.LibConcat2
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Combine

open Cert.KernelIdeal Cert.KernelIdeal.Gen Idealize.ShloMosaic Idealize.ShloMosaic.ValueIdx

/-! ## The product's operand indices: row `(p, k)` of the left operand, `(k, o)` of the right -/

theorem lhs_0 (i : S5000x128.Idx) (q : dot_S5000x192_S192x128_S5000x128_1_0_0_1_n_n.contr.Idx) :
    (dot_S5000x192_S192x128_S5000x128_1_0_0_1_n_n.lhsIdx i q 0).val = (i 0).val := by
  unfold DotDims.lhsIdx
  rw [dif_neg (show ¬(0 : Fin S5000x192.rank) ∈ dot_S5000x192_S192x128_S5000x128_1_0_0_1_n_n.lhsBatch by decide), dif_pos (show (0 : Fin S5000x192.rank) ∈ dot_S5000x192_S192x128_S5000x128_1_0_0_1_n_n.lhsNonContracting by decide)]
  rfl
theorem lhs_1 (i : S5000x128.Idx) (q : dot_S5000x192_S192x128_S5000x128_1_0_0_1_n_n.contr.Idx) :
    (dot_S5000x192_S192x128_S5000x128_1_0_0_1_n_n.lhsIdx i q 1).val = (q ⟨0, by decide⟩).val :=
  dot_S5000x192_S192x128_S5000x128_1_0_0_1_n_n.lhsIdx_val_of_single rfl i q
theorem rhs_0 (i : S5000x128.Idx) (q : dot_S5000x192_S192x128_S5000x128_1_0_0_1_n_n.contr.Idx) :
    (dot_S5000x192_S192x128_S5000x128_1_0_0_1_n_n.rhsIdx i q 0).val = (q ⟨0, by decide⟩).val :=
  dot_S5000x192_S192x128_S5000x128_1_0_0_1_n_n.rhsIdx_val_of_single rfl i q
theorem rhs_1 (i : S5000x128.Idx) (q : dot_S5000x192_S192x128_S5000x128_1_0_0_1_n_n.contr.Idx) :
    (dot_S5000x192_S192x128_S5000x128_1_0_0_1_n_n.rhsIdx i q 1).val = (i 1).val := by
  unfold DotDims.rhsIdx
  rw [dif_neg (show ¬(1 : Fin S192x128.rank) ∈ dot_S5000x192_S192x128_S5000x128_1_0_0_1_n_n.rhsBatch by decide), dif_pos (show (1 : Fin S192x128.rank) ∈ dot_S5000x192_S192x128_S5000x128_1_0_0_1_n_n.rhsNonContracting by decide)]
  rfl

/-- The matrix product into a zero accumulator, read at `(p, o)`: the sum over the 192 joined columns. -/
theorem dot_at (h : FVec Ideal S5000x192 .f32) (w : FVec Ideal S192x128 .f32) (p : Fin 5000) (o : Fin 128) :
    matmul dot_S5000x192_S192x128_S5000x128_1_0_0_1_n_n none (truncf .bf16 h bitsLt_bf16_f32) (truncf .bf16 w bitsLt_bf16_f32)
        (constant S5000x128 .f32 0x00000000#32) (ix2 p o)
      = ∑ k : Fin 192, h (ix2 p k) * w (ix2 k o) := by
  simp only [matmul]
  rw [Ideal.matmul_constant_zero_apply, ← Equiv.sum_comp (contrEquiv1 dot_S5000x192_S192x128_S5000x128_1_0_0_1_n_n 192 rfl rfl).symm]
  refine Finset.sum_congr rfl fun k _ => ?_
  have hk := contrEquiv1_symm_val dot_S5000x192_S192x128_S5000x128_1_0_0_1_n_n 192 rfl rfl k
  have el : dot_S5000x192_S192x128_S5000x128_1_0_0_1_n_n.lhsIdx (ix2 p o) ((contrEquiv1 dot_S5000x192_S192x128_S5000x128_1_0_0_1_n_n 192 rfl rfl).symm k) = ix2 p k := funext fun a => Fin.ext (by
    match a with
    | ⟨0, _⟩ => exact lhs_0 _ _
    | ⟨1, _⟩ => exact (lhs_1 _ _).trans hk)
  have er : dot_S5000x192_S192x128_S5000x128_1_0_0_1_n_n.rhsIdx (ix2 p o) ((contrEquiv1 dot_S5000x192_S192x128_S5000x128_1_0_0_1_n_n 192 rfl rfl).symm k) = ix2 k o := funext fun a => Fin.ext (by
    match a with
    | ⟨0, _⟩ => exact (rhs_0 _ _).trans hk
    | ⟨1, _⟩ => exact rhs_1 _ _)
  rw [el, er, truncf_apply, truncf_apply]

/-! ## The joined row -/

/-- Entry `k` of row `p` of the block's joined input: attribute `k` below column 128, then the summed edge
    feature `k - 128` over the edge count clamped below at one. -/
def brow (cnt : Vec Ideal S5000x1 .f32) (seg : Vec Ideal S5000x64 .f32) (attr : Vec Ideal S5000x128 .f32)
    (p : Fin 5000) (k : Fin 192) : EReal :=
  if h : k.val < 128 then attr (ix2 p ⟨k.val, h⟩)
  else Ideal.div (seg (ix2 p ⟨k.val - 128, by have := k.isLt; omega⟩)) (max (cnt (ix2 p (0 : Fin 1))) Cert.Sage.one)

/-- The body's concatenation read at `(p, k)` is that entry. -/
theorem joined_at (cnt : Vec Ideal S5000x1 .f32) (seg : Vec Ideal S5000x64 .f32) (attr : Vec Ideal S5000x128 .f32)
    (p : Fin 5000) (k : Fin 192) :
    concatenate S5000x192 1 [⟨S5000x128, attr⟩, ⟨S5000x64, divf (shapeCast S5000x64 seg shapeCasts_S5000x64_S5000x64)
        (broadcastTo S5000x64 (maximumf (shapeCast S5000x1 cnt shapeCasts_S5000x1_S5000x1)
          (broadcast S5000x1 (Scalar.ofBits (F := Ideal) .f32 0x3F800000#32))) broadcasts_S5000x1_S5000x64)⟩]
        concatenates_S5000x128_S5000x64_S5000x192_d1 (ix2 p k)
      = brow cnt seg attr p k := by
  unfold brow
  split
  · next h =>
    exact Cert.LibConcat2.last2_left (n0 := 5000) (m1 := 128) (m2 := 64) (m := 192) attr _ concatenates_S5000x128_S5000x64_S5000x192_d1 p k h
  · next h =>
    have hk := k.isLt
    refine (Cert.LibConcat2.last2_right (n0 := 5000) (m1 := 128) (m2 := 64) (m := 192) attr _ concatenates_S5000x128_S5000x64_S5000x192_d1 p k (by omega) (by omega)).trans ?_
    rw [divf_apply, shapeCast_self, Cert.LibColumn.broadcastTo_a1_ab_apply, maximumf_apply, shapeCast_self, broadcast_apply]
    rfl

/-! ## The stored value -/

/-- The body's stored value at `(p, o)`. -/
theorem stored_at (cnt : Vec Ideal S5000x1 .f32) (seg : Vec Ideal S5000x64 .f32) (attr : Vec Ideal S5000x128 .f32)
    (wt : Vec Ideal S192x128 .f32) (bias : Vec Ideal S1x128 .f32) (nw : Vec Ideal S5000x1 .f32) (p : Fin 5000) (o : Fin 128) :
    k1_pay1 cnt seg attr wt bias nw (ix2 p o)
      = max ((∑ k : Fin 192, brow cnt seg attr p k * wt (ix2 k o)) + bias (ix2 (0 : Fin 1) o)) Cert.Sage.zero
          * nw (ix2 p (0 : Fin 1)) := by
  unfold k1_pay1
  simp only [shapeCast_self]
  rw [mulf_apply, maximumf_apply, addf_apply, dot_at, broadcast_apply, Cert.LibColumn.broadcastTo_a1_ab_apply,
    broadcastTo_1b_ab_apply]
  refine congrArg (fun s => max (s + bias (ix2 (0 : Fin 1) o)) Cert.Sage.zero * nw (ix2 p (0 : Fin 1)))
    (Finset.sum_congr rfl fun k _ => ?_)
  exact congrArg (· * wt (ix2 k o)) (joined_at cnt seg attr p k)

end Cert.KernelIdeal.Combine

end
-- ==== Proof.Combine.lean ====
/-
  The combining region, as one whole-array function.

  Its grid has 20 points; point `t` takes rows `5000·t … 5000·t + 4999` of the node attributes, of the summed edge
  features, of the edge-count column and of the node-weight column, and the whole transposed weight matrix and bias
  row, and writes the body's value back to the same rows of the result. Every row belongs to exactly one point
  (`r / 5000`), so after the region the result array is, index by index, `combined` of the arrays the region was
  entered with: at `(n, o)`, `max (∑ₖ row n k · wt (k, o) + bias (0, o)) 0 · nw (n, 0)`, row `n` being the node's
  attributes followed by its summed edge features over its edge count clamped below at one.
-/
import proofs.«167263_j47880295416397_2_alg».proof.Proof.Gen.KernelIdeal.Frame
import proofs.«167263_j47880295416397_2_alg».proof.Proof.CombineBody

set_option maxRecDepth 16384

noncomputable section

namespace Cert.KernelIdeal.Combine

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem offs_zero : (![0, 0] : Fin 2 → Nat) = fun _ => 0 := funext fun a => by fin_cases a <;> rfl

/-- Entry `k` of node `n`'s joined row, from the whole arrays (the count as a column). -/
def grow (attr : S100000x128.Idx → Elt Ideal .f32) (seg : S100000x64.Idx → Elt Ideal .f32) (cnt : S100000x1.Idx → Elt Ideal .f32)
    (n : Fin 100000) (k : Fin 192) : EReal :=
  if h : k.val < 128 then attr (ix2 n ⟨k.val, h⟩)
  else Ideal.div (seg (ix2 n ⟨k.val - 128, by have := k.isLt; omega⟩)) (max (cnt (ix2 n (0 : Fin 1))) Cert.Sage.one)

/-- The region's result as one function of the arrays it is entered with. -/
def combined (attr : S100000x128.Idx → Elt Ideal .f32) (seg : S100000x64.Idx → Elt Ideal .f32) (cnt : S100000x1.Idx → Elt Ideal .f32)
    (nw : S100000x1.Idx → Elt Ideal .f32) (wt : S192x128.Idx → Elt Ideal .f32) (bias : S1x128.Idx → Elt Ideal .f32) :
    S100000x128.Idx → Elt Ideal .f32 := fun i =>
  max ((∑ k : Fin 192, grow attr seg cnt (i 0) k * wt (ix2 k (i 1))) + bias (ix2 (0 : Fin 1) (i 1))) Cert.Sage.zero
    * nw (ix2 (i 0) (0 : Fin 1))

/-- The body's stored value at an index not yet split into its coordinates. -/
theorem stored_apply (cnt : Vec Ideal S5000x1 .f32) (seg : Vec Ideal S5000x64 .f32) (attr : Vec Ideal S5000x128 .f32)
    (wt : Vec Ideal S192x128 .f32) (bias : Vec Ideal S1x128 .f32) (nw : Vec Ideal S5000x1 .f32) (j : S5000x128.Idx) :
    k1_pay1 cnt seg attr wt bias nw j
      = max ((∑ k : Fin 192, brow cnt seg attr (j 0) k * wt (ix2 k (j 1))) + bias (ix2 (0 : Fin 1) (j 1))) Cert.Sage.zero
          * nw (ix2 (j 0) (0 : Fin 1)) := by
  obtain ⟨p, o, rfl⟩ : ∃ (p : Fin 5000) (o : Fin 128), j = ix2 p o := ⟨j 0, j 1, eq_ix2 j⟩
  exact stored_at cnt seg attr wt bias nw p o

/-- The block's value at `(p, o)` is `combined` at `(n, o)` once each block entry it reads is the whole array's entry
    of row `n`. -/
theorem combined_of_eq (attr : S100000x128.Idx → Elt Ideal .f32) (seg : S100000x64.Idx → Elt Ideal .f32)
    (cnt : S100000x1.Idx → Elt Ideal .f32) (nw : S100000x1.Idx → Elt Ideal .f32) (wt : S192x128.Idx → Elt Ideal .f32)
    (bias : S1x128.Idx → Elt Ideal .f32)
    (battr : Vec Ideal S5000x128 .f32) (bseg : Vec Ideal S5000x64 .f32) (bcnt : Vec Ideal S5000x1 .f32)
    (bnw : Vec Ideal S5000x1 .f32) (bwt : Vec Ideal S192x128 .f32) (bbias : Vec Ideal S1x128 .f32)
    (i : S100000x128.Idx) (n : Fin 100000) (p : Fin 5000) (o : Fin 128) (hi : i = ix2 n o)
    (h0 : ∀ k : Fin 128, battr (ix2 p k) = attr (ix2 n k))
    (h1 : ∀ k : Fin 64, bseg (ix2 p k) = seg (ix2 n k))
    (h2 : bcnt (ix2 p (0 : Fin 1)) = cnt (ix2 n (0 : Fin 1)))
    (h3 : bnw (ix2 p (0 : Fin 1)) = nw (ix2 n (0 : Fin 1)))
    (h4 : ∀ k : Fin 192, bwt (ix2 k o) = wt (ix2 k o))
    (h5 : bbias (ix2 (0 : Fin 1) o) = bias (ix2 (0 : Fin 1) o)) :
    max ((∑ k : Fin 192, brow bcnt bseg battr p k * bwt (ix2 k o)) + bbias (ix2 (0 : Fin 1) o)) Cert.Sage.zero
        * bnw (ix2 p (0 : Fin 1))
      = combined attr seg cnt nw wt bias i := by
  subst hi
  have hrow : ∀ k : Fin 192, brow bcnt bseg battr p k = grow attr seg cnt n k := fun k => by
    unfold brow grow
    split
    · exact h0 _
    · rw [h1, h2]
  show _ = max ((∑ k : Fin 192, grow attr seg cnt n k * wt (ix2 k o)) + bias (ix2 (0 : Fin 1) o)) Cert.Sage.zero
    * nw (ix2 n (0 : Fin 1))
  simp only [hrow, h4, h5, h3]

/-- The printed index maps over the grid: the four row windows and the result sit at block row `t`, block column `0`;
    the weight matrix and the bias row are one block each. -/
theorem index_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- What point `t` writes back is block `t` of `combined` of the arrays as the region finds them. -/
theorem flushed_eq (c : Dev nD) (t : Fin cfg1.N) :
    (dat1 V c).flushed 6 t = ((cfg1.win 6).blk t).view.read (Elt Ideal)
      (combined (V c main_arg2) (V c main_v6) (V c main_v11) (V c main_v12) (V c main_v13) (V c main_v14)) := by
  show (cfg1.win 6).cut (grid1.coords t) ((dat1 V c).after 6 t) = _
  rw [after1_6]
  unfold out1_6
  rw [View.canon_unit_zero offs_zero]
  simp only [View.ld_unit_zero (S := S5000x128) offs_zero, View.ld_unit_zero (S := S5000x64) offs_zero,
    View.ld_unit_zero (S := S5000x1) offs_zero, View.ld_unit_zero (S := S192x128) offs_zero,
    View.ld_unit_zero (S := S1x128) offs_zero]
  obtain ⟨a0, a1, b0, b1, c0, c1, d0, d1, w0, w1, r0, r1, o0, o1⟩ := index_facts t
  funext j
  refine (stored_apply (iblk1 V c 2 t) (iblk1 V c 1 t) (iblk1 V c 0 t) (iblk1 V c 4 t) (iblk1 V c 5 t) (iblk1 V c 3 t) j).trans ?_
  have hj0 : (j 0).val < 5000 := (j 0).isLt
  refine combined_of_eq (V c main_arg2) (V c main_v6) (V c main_v11) (V c main_v12) (V c main_v13) (V c main_v14)
    (iblk1 V c 0 t) (iblk1 V c 1 t) (iblk1 V c 2 t) (iblk1 V c 3 t) (iblk1 V c 4 t) (iblk1 V c 5 t)
    (((cfg1.win 6).blk t).view.emb j) ((((cfg1.win 6).blk t).view.emb j) 0) (j 0) (j 1) ?_ ?_ ?_ ?_ ?_ ?_ ?_
  · funext a; apply Fin.ext
    match a with
    | ⟨0, _⟩ => rfl
    | ⟨1, _⟩ => show win1_6.index t (1 : Fin 2) * 128 + 1 * (j 1).val = (j 1).val; omega
  · intro k
    show V c main_arg2 (((cfg1.win 0).blk t).view.emb (ix2 (j 0) k)) = V c main_arg2 (ix2 ((((cfg1.win 6).blk t).view.emb j) 0) k)
    have e : ((cfg1.win 0).blk t).view.emb (ix2 (j 0) k) = ix2 ((((cfg1.win 6).blk t).view.emb j) 0) k := by
      funext a; apply Fin.ext
      match a with
      | ⟨0, _⟩ => show win1_0.index t (0 : Fin 2) * 5000 + 1 * (j 0).val = win1_6.index t (0 : Fin 2) * 5000 + 1 * (j 0).val; omega
      | ⟨1, _⟩ => show win1_0.index t (1 : Fin 2) * 128 + 1 * k.val = k.val; omega
    rw [e]
    rfl
  · intro k
    show V c main_v6 (((cfg1.win 1).blk t).view.emb (ix2 (j 0) k)) = V c main_v6 (ix2 ((((cfg1.win 6).blk t).view.emb j) 0) k)
    have e : ((cfg1.win 1).blk t).view.emb (ix2 (j 0) k) = ix2 ((((cfg1.win 6).blk t).view.emb j) 0) k := by
      funext a; apply Fin.ext
      match a with
      | ⟨0, _⟩ => show win1_1.index t (0 : Fin 2) * 5000 + 1 * (j 0).val = win1_6.index t (0 : Fin 2) * 5000 + 1 * (j 0).val; omega
      | ⟨1, _⟩ => show win1_1.index t (1 : Fin 2) * 64 + 1 * k.val = k.val; omega
    rw [e]
    rfl
  · show V c main_v11 (((cfg1.win 2).blk t).view.emb (ix2 (j 0) (0 : Fin 1))) = V c main_v11 (ix2 ((((cfg1.win 6).blk t).view.emb j) 0) (0 : Fin 1))
    have e : ((cfg1.win 2).blk t).view.emb (ix2 (j 0) (0 : Fin 1)) = ix2 ((((cfg1.win 6).blk t).view.emb j) 0) (0 : Fin 1) := by
      funext a; apply Fin.ext
      match a with
      | ⟨0, _⟩ => show win1_2.index t (0 : Fin 2) * 5000 + 1 * (j 0).val = win1_6.index t (0 : Fin 2) * 5000 + 1 * (j 0).val; omega
      | ⟨1, _⟩ => show win1_2.index t (1 : Fin 2) * 1 + 1 * 0 = 0; omega
    rw [e]
    rfl
  · show V c main_v12 (((cfg1.win 3).blk t).view.emb (ix2 (j 0) (0 : Fin 1))) = V c main_v12 (ix2 ((((cfg1.win 6).blk t).view.emb j) 0) (0 : Fin 1))
    have e : ((cfg1.win 3).blk t).view.emb (ix2 (j 0) (0 : Fin 1)) = ix2 ((((cfg1.win 6).blk t).view.emb j) 0) (0 : Fin 1) := by
      funext a; apply Fin.ext
      match a with
      | ⟨0, _⟩ => show win1_3.index t (0 : Fin 2) * 5000 + 1 * (j 0).val = win1_6.index t (0 : Fin 2) * 5000 + 1 * (j 0).val; omega
      | ⟨1, _⟩ => show win1_3.index t (1 : Fin 2) * 1 + 1 * 0 = 0; omega
    rw [e]
    rfl
  · intro k
    show V c main_v13 (((cfg1.win 4).blk t).view.emb (ix2 k (j 1))) = V c main_v13 (ix2 k (j 1))
    have e : ((cfg1.win 4).blk t).view.emb (ix2 k (j 1)) = ix2 k (j 1) := by
      funext a; apply Fin.ext
      match a with
      | ⟨0, _⟩ => show win1_4.index t (0 : Fin 2) * 192 + 1 * k.val = k.val; omega
      | ⟨1, _⟩ => show win1_4.index t (1 : Fin 2) * 128 + 1 * (j 1).val = (j 1).val; omega
    rw [e]
    rfl
  · show V c main_v14 (((cfg1.win 5).blk t).view.emb (ix2 (0 : Fin 1) (j 1))) = V c main_v14 (ix2 (0 : Fin 1) (j 1))
    have e : ((cfg1.win 5).blk t).view.emb (ix2 (0 : Fin 1) (j 1)) = ix2 (0 : Fin 1) (j 1) := by
      funext a; apply Fin.ext
      match a with
      | ⟨0, _⟩ => show win1_5.index t (0 : Fin 2) * 1 + 1 * 0 = 0; omega
      | ⟨1, _⟩ => show win1_5.index t (1 : Fin 2) * 128 + 1 * (j 1).val = (j 1).val; omega
    rw [e]
    rfl

/-- An index of the result array is in point `t`'s block iff each coordinate is in the block's range on its axis. -/
theorem mem_blk (t : Fin cfg1.N) (i : S100000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v15).slice (win1_6.rect t)).set ↔ _
  rw [View.set_slice_whole, Rect.mem_set_unit]
  exact Iff.rfl

/-- Every index of the result array is in the block of the point its row divides to. -/
theorem cover (i : S100000x128.Idx) : ∃ t : Fin cfg1.N, (cfg1.win 6).flush t = true ∧ i ∈ ((cfg1.win 6).blk t).view.set := by
  have hi0 : (i 0).val < 100000 := (i 0).isLt
  have hi1 : (i 1).val < 128 := (i 1).isLt
  have hN : cfg1.N = 20 := N_1
  have ht : (i 0).val / 5000 < cfg1.N := by rw [hN]; omega
  obtain ⟨-, -, -, -, -, -, -, -, -, -, -, -, e4, e5⟩ := index_facts ⟨(i 0).val / 5000, ht⟩
  refine ⟨⟨(i 0).val / 5000, ht⟩, flush1_6 _, ?_⟩
  rw [mem_blk]
  intro a
  match a with
  | ⟨0, _⟩ =>
    show win1_6.index ⟨(i 0).val / 5000, ht⟩ (0 : Fin 2) * 5000 ≤ (i 0).val ∧ (i 0).val < win1_6.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win1_6.index ⟨(i 0).val / 5000, ht⟩ (1 : Fin 2) * 128 ≤ (i 1).val ∧ (i 1).val < win1_6.index ⟨(i 0).val / 5000, ht⟩ (1 : Fin 2) * 128 + 128
    rw [e5]; omega

/-- After the region its result array IS `combined` of the arrays it was entered with. -/
theorem final (c : Dev nD) : (dat1 V c).arrAt 6 cfg1.N
    = combined (V c main_arg2) (V c main_v6) (V c main_v11) (V c main_v12) (V c main_v13) (V c main_v14) :=
  (dat1 V c).arrAt_eq_of_cover 6 _ (fun t _ => flushed_eq V c t) cover

end Cert.KernelIdeal.Combine

end
-- ==== Proof.LibUnitColumn.lean ====
/-
  A vector cast to a column, read at an index: an `[a]` array cast to `[a, 1]` reads, at `(i, u)`, the vector's
  entry `i`, whatever the unit coordinate `u`.
-/
import Idealize.ShloMosaic.Lib.Pipeline.Value
import Idealize.ShloMosaic.Lib.ValueIdx

namespace Cert.LibUnitColumn

open Idealize.ShloMosaic Idealize.ShloMosaic.ValueIdx

variable {α : Type}

/-- An `[a]` array cast to `[a, 1]` reads, at `(i, u)`, the operand at `i`: both indices have the row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibUnitColumn
-- ==== Proof.KernelIsG.lean ====
/-
  The idealized kernel's result is the layer's function `G` of the specification.

  The combining region leaves in the result array its whole-array function of what it was entered with; the host
  operations between the regions say what that is — the node attributes as launched, the scatter-added weighted edge
  features, the scatter-added edge counts as a column, the node weights as a column, the transposed weight matrix and
  the bias as a row —, and the edge-weighting region says what the weighted edge features are. A vector read through a
  column or row cast is the vector's entry, so the region's function of these arrays is `G` of the vectors themselves.
-/
import proofs.«167263_j47880295416397_2_alg».proof.Proof.EdgeWeights
import proofs.«167263_j47880295416397_2_alg».proof.Proof.Between
import proofs.«167263_j47880295416397_2_alg».proof.Proof.Combine
import proofs.«167263_j47880295416397_2_alg».proof.Proof.Spec
import proofs.«167263_j47880295416397_2_alg».proof.Proof.LibUnitColumn
import Idealize.ShloMosaic.Lib.ValueLayout

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx

/-- The combining region's function, of a count column, a weight column and a bias row that are casts of vectors, is
    `G` of the vectors. -/
theorem combined_eq_G (attr : S100000x128.Idx → Elt Ideal .f32) (seg : S100000x64.Idx → Elt Ideal .f32)
    (cnt : S100000.Idx → Elt Ideal .f32) (nw : S100000.Idx → Elt Ideal .f32) (wt : S192x128.Idx → Elt Ideal .f32)
    (b : S128.Idx → Elt Ideal .f32) :
    Combine.combined attr seg (shapeCast S100000x1 cnt shapeCasts_S100000_S100000x1)
        (shapeCast S100000x1 nw shapeCasts_S100000_S100000x1) wt (shapeCast S1x128 b shapeCasts_S128_S1x128)
      = Cert.Sage.G attr seg cnt nw wt b := by
  funext i
  obtain ⟨n, o, rfl⟩ : ∃ (n : Fin 100000) (o : Fin 128), i = ix2 n o := ⟨i 0, i 1, eq_ix2 i⟩
  have hcnt : shapeCast S100000x1 cnt shapeCasts_S100000_S100000x1 (ix2 n (0 : Fin 1)) = cnt (ix1 n) :=
    Cert.LibUnitColumn.shapeCast_a_a1_apply (a := 100000) cnt shapeCasts_S100000_S100000x1 n 0
  have hnw : shapeCast S100000x1 nw shapeCasts_S100000_S100000x1 (ix2 n (0 : Fin 1)) = nw (ix1 n) :=
    Cert.LibUnitColumn.shapeCast_a_a1_apply (a := 100000) nw shapeCasts_S100000_S100000x1 n 0
  have hb : shapeCast S1x128 b shapeCasts_S128_S1x128 (ix2 (0 : Fin 1) o) = b (ix1 o) :=
    shapeCast_a_1a_apply (a := 128) b shapeCasts_S128_S1x128 0 o
  have hrow : ∀ k : Fin 192, Combine.grow attr seg (shapeCast S100000x1 cnt shapeCasts_S100000_S100000x1) n k
      = Cert.Sage.hrow attr seg cnt n k := fun k => by
    unfold Combine.grow Cert.Sage.hrow
    split
    · rfl
    · rw [hcnt]
  show max ((∑ k : Fin 192, Combine.grow attr seg (shapeCast S100000x1 cnt shapeCasts_S100000_S100000x1) n k * wt (ix2 k o))
        + shapeCast S1x128 b shapeCasts_S128_S1x128 (ix2 (0 : Fin 1) o)) Cert.Sage.zero
      * shapeCast S100000x1 nw shapeCasts_S100000_S100000x1 (ix2 n (0 : Fin 1))
    = max ((∑ k : Fin 192, Cert.Sage.hrow attr seg cnt n k * wt (ix2 k o)) + b (ix1 o)) Cert.Sage.zero * nw (ix1 n)
  rw [hb, hnw]
  simp only [hrow]

variable (m : (ℓ : Loc nD τ sig) → Buf (Elt Ideal) ℓ) (ρ : Dev nD → PrngReg)

/-- What the combining region's write-backs leave of the result array, in the launch contents of the arguments. -/
theorem result_eq (c : Dev nD) : (dat1 (V3 m ρ) c).arrAt 6 cfg1.N
    = Cert.Sage.G (m ((c : Thread nD τ).loc main_arg2))
        (Between.segSum (m ((c : Thread nD τ).loc main_arg0))
          (Edge.weighted (m ((c : Thread nD τ).loc main_arg1))
            (shapeCast S1250000x1 (m ((c : Thread nD τ).loc main_arg3)) shapeCasts_S1250000_S1250000x1)))
        (Between.segCnt (m ((c : Thread nD τ).loc main_arg0)))
        (m ((c : Thread nD τ).loc main_arg4))
        (transpose S192x128 [1, 0] (m ((c : Thread nD τ).loc main_arg5)) transposes_S128x192_S192x128_1_0)
        (m ((c : Thread nD τ).loc main_arg6)) := by
  rw [Combine.final (V3 m ρ) c, Between.V3_arg2, Between.V3_v6, Between.V3_v11, Between.V3_v12, Between.V3_v13,
    Between.V3_v14, Edge.final (V1 m ρ) c, Between.V1_arg1, Between.V1_v0]
  exact combined_eq_G _ _ _ _ _ _

end Cert.KernelIdeal.Whole

end
-- ==== Proof.RefIsG.lean ====
/-
  The reference program's result, read index by index, is the layer's function `G` of the specification.

  The reference joins each node's 128 attributes with the 64 entries of its mean incoming edge feature (the summed
  weighted edge features divided by the larger of the edge count and one), multiplies the joined row by the transposed
  weight matrix, adds the bias, clamps below at zero and scales by the node's weight. Read at `(n, o)` this is
  `max (∑ₖ row n k · wt k o + b o) 0 · nw n`, where `row n k` is attribute `k` of node `n` for `k < 128` and entry
  `k - 128` of the mean edge feature from there on. The two summed arrays (edge features and edge counts) and the
  transposed weight matrix enter only as whole arrays read at an index; they are never opened.
-/
import proofs.«167263_j47880295416397_2_alg».proof.Proof.Gen.ReferenceIdeal.Read
import proofs.«167263_j47880295416397_2_alg».proof.Proof.Spec
import proofs.«167263_j47880295416397_2_alg».proof.Proof.LibConcat2
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.ValueIdx

/-- Entry `(n, k)` of the joined array is entry `k` of node `n`'s input row: the node's attribute `k` below column 128,
    and from there on entry `k - 128` of the summed edge features divided by the larger of the edge count and one. -/
theorem row_apply (x0 : (⟨S2x1250000, .i32⟩ : BufTy).Contents (Elt Ideal)) (x1 : (⟨S1250000x64, .f32⟩ : BufTy).Contents (Elt Ideal))
    (x2 : (⟨S100000x128, .f32⟩ : BufTy).Contents (Elt Ideal)) (x3 : (⟨S1250000, .f32⟩ : BufTy).Contents (Elt Ideal))
    (n : Fin 100000) (k : Fin 192) :
    Read.val_main_v17 (F := Ideal) x0 x1 x2 x3 (ix2 n k)
      = Cert.Sage.hrow x2 (Read.val_main_v7 (F := Ideal) x0 x1 x3) (Read.val_main_v11 (F := Ideal) x0) n k := by
  unfold Cert.Sage.hrow Read.val_main_v17
  by_cases h : k.val < 128
  · rw [dif_pos h]
    exact Cert.LibConcat2.last2_left x2 _ _ n k h
  · rw [dif_neg h]
    have hk : k.val < 192 := k.isLt
    refine (Cert.LibConcat2.last2_right x2 _ _ n k (by omega) (by omega)).trans ?_
    have e : ∀ c : Fin 64, Read.idx_main_v14 (Read.idx_main_v15 (ix2 n c)) = ix1 n := fun c =>
      funext fun a => Fin.ext (by match a with | ⟨0, _⟩ => rfl)
    rw [Read.val_main_v16_apply, Read.val_main_v15_apply, Read.val_main_v14_apply, Read.val_main_v13_apply,
      Read.val_main_v12_apply, Read.val_main_cst_2_apply, e]
    simp only [Ideal.hostDivf_def, Ideal.maximumf_def, Ideal.ofBits_def]

/-- The reference's result is the layer's function `G` of the node attributes, the summed edge features, the edge
    counts, the node weights, the transposed weight matrix and the bias. -/
theorem ref_is_G (x0 : (⟨S2x1250000, .i32⟩ : BufTy).Contents (Elt Ideal)) (x1 : (⟨S1250000x64, .f32⟩ : BufTy).Contents (Elt Ideal))
    (x2 : (⟨S100000x128, .f32⟩ : BufTy).Contents (Elt Ideal)) (x3 : (⟨S1250000, .f32⟩ : BufTy).Contents (Elt Ideal))
    (x4 : (⟨S100000, .f32⟩ : BufTy).Contents (Elt Ideal)) (x5 : (⟨S128x192, .f32⟩ : BufTy).Contents (Elt Ideal))
    (x6 : (⟨S128, .f32⟩ : BufTy).Contents (Elt Ideal)) :
    Read.val_main_v26 (F := Ideal) x0 x1 x2 x3 x4 x5 x6
      = Cert.Sage.G x2 (Read.val_main_v7 (F := Ideal) x0 x1 x3) (Read.val_main_v11 (F := Ideal) x0) x4
          (Read.val_main_v18 (F := Ideal) x5) x6 := by
  funext i
  obtain ⟨n, o, rfl⟩ : ∃ (n : Fin 100000) (o : Fin 128), i = ix2 n o := ⟨i 0, i 1, eq_ix2 i⟩
  have e1 : Read.idx_main_v24 (Read.idx_main_v25 (ix2 n o)) = ix1 n :=
    funext fun a => Fin.ext (by match a with | ⟨0, _⟩ => rfl)
  have e2 : Read.idx_main_v20 (Read.idx_main_v21 (ix2 n o)) = ix1 o :=
    funext fun a => Fin.ext (by match a with | ⟨0, _⟩ => rfl)
  have e3 : ∀ k : Fin 192, Read.lidx_main_v19 (ix2 n o) k = ix2 n k := fun k =>
    funext fun a => Fin.ext (by match a with | ⟨0, _⟩ => rfl | ⟨1, _⟩ => rfl)
  have e4 : ∀ k : Fin 192, Read.ridx_main_v19 (ix2 n o) k = ix2 k o := fun k =>
    funext fun a => Fin.ext (by match a with | ⟨0, _⟩ => rfl | ⟨1, _⟩ => rfl)
  rw [Read.val_main_v26_apply, Read.val_main_v25_apply, Read.val_main_v24_apply, Read.val_main_v23_apply,
    Read.val_main_call0_v0_apply, Read.val_main_call0_cst_apply, Read.val_main_v22_apply, Read.val_main_v21_apply,
    Read.val_main_v20_apply, Read.val_main_v19_apply, e1, e2]
  simp only [e3, e4, row_apply, Ideal.mulf_def, Ideal.addf_def, Ideal.maximumf_def, Ideal.ofBits_def]
  rfl

end Cert.ReferenceIdeal.RefValue

end
-- ==== Proof.Bridge.lean ====
/-
  The two programs' results are one function of the arguments.

  Both programs weight each edge's feature row by the edge's weight — the kernel through a weight column, the
  reference through a broadcast — and at an index both read `feature (e, f) · weight e`. Both then apply the very same
  scatter-adds over the first row of the edge index and the very same transpose of the weight matrix. So the kernel's
  result, the layer's function `G` of its own spelling of these arrays, is `G` of the reference's.
-/
import proofs.«167263_j47880295416397_2_alg».proof.Proof.KernelIsG
import proofs.«167263_j47880295416397_2_alg».proof.Proof.RefIsG

set_option maxRecDepth 16384

noncomputable section

namespace Cert.Proof.Bridge

open Idealize.ShloMosaic Idealize.ShloMosaic.TcCoe Idealize.SL.Sem Idealize.ShloMosaic.ValueIdx

/-- The weighted edge features, in the kernel's spelling (a weight column) and in the reference's (two broadcasts). -/
theorem weighted_eq (x1 : (⟨Cert.ReferenceIdeal.S1250000x64, .f32⟩ : BufTy).Contents (Elt Ideal))
    (x3 : (⟨Cert.ReferenceIdeal.S1250000, .f32⟩ : BufTy).Contents (Elt Ideal)) :
    Cert.KernelIdeal.Edge.weighted x1
        (shapeCast Cert.KernelIdeal.S1250000x1 x3 Cert.KernelIdeal.Facts₀.shapeCasts_S1250000_S1250000x1)
      = Cert.ReferenceIdeal.Read.val_main_v2 (F := Ideal) x1 x3 := by
  funext i
  obtain ⟨e, f, rfl⟩ : ∃ (e : Fin 1250000) (f : Fin 64), i = ix2 e f := ⟨i 0, i 1, eq_ix2 i⟩
  have e1 : Cert.ReferenceIdeal.Read.idx_main_v0 (Cert.ReferenceIdeal.Read.idx_main_v1 (ix2 e f)) = ix1 e :=
    funext fun a => Fin.ext (by match a with | ⟨0, _⟩ => rfl)
  rw [Cert.ReferenceIdeal.Read.val_main_v2_apply, Cert.ReferenceIdeal.Read.val_main_v1_apply,
    Cert.ReferenceIdeal.Read.val_main_v0_apply, e1]
  unfold Cert.KernelIdeal.Edge.weighted
  rw [Cert.LibUnitColumn.shapeCast_a_a1_apply]
  rfl

/-- The summed weighted edge features: one scatter-add, spelt in either program. -/
theorem segSum_eq (x0 : (⟨Cert.ReferenceIdeal.S2x1250000, .i32⟩ : BufTy).Contents (Elt Ideal))
    (x1 : (⟨Cert.ReferenceIdeal.S1250000x64, .f32⟩ : BufTy).Contents (Elt Ideal))
    (x3 : (⟨Cert.ReferenceIdeal.S1250000, .f32⟩ : BufTy).Contents (Elt Ideal)) :
    Cert.KernelIdeal.Between.segSum (F := Ideal) x0 (Cert.ReferenceIdeal.Read.val_main_v2 (F := Ideal) x1 x3)
      = Cert.ReferenceIdeal.Read.val_main_v7 (F := Ideal) x0 x1 x3 := rfl

/-- The edge counts likewise. -/
theorem segCnt_eq (x0 : (⟨Cert.ReferenceIdeal.S2x1250000, .i32⟩ : BufTy).Contents (Elt Ideal)) :
    Cert.KernelIdeal.Between.segCnt (F := Ideal) x0 = Cert.ReferenceIdeal.Read.val_main_v11 (F := Ideal) x0 := rfl

/-- The transposed weight matrix likewise. -/
theorem wt_eq (x5 : (⟨Cert.ReferenceIdeal.S128x192, .f32⟩ : BufTy).Contents (Elt Ideal)) :
    transpose Cert.KernelIdeal.S192x128 [1, 0] x5 Cert.KernelIdeal.Facts₀.transposes_S128x192_S192x128_1_0
      = Cert.ReferenceIdeal.Read.val_main_v18 (F := Ideal) x5 := rfl

open Cert.KernelIdeal Cert.KernelIdeal.Gen in
/-- The kernel's result array, as `G` of the reference's spelling of the intermediate arrays, over the kernel's
    launch contents. -/
theorem kernel_result (m : (ℓ : Loc nD τ sig) → Buf (Elt Ideal) ℓ) (ρ : Dev nD → PrngReg) (c : Dev nD) :
    (dat1 (V3 m ρ) c).arrAt 6 cfg1.N
      = Cert.Sage.G (m ((c : Thread nD τ).loc main_arg2))
          (Cert.ReferenceIdeal.Read.val_main_v7 (F := Ideal) (m ((c : Thread nD τ).loc main_arg0))
            (m ((c : Thread nD τ).loc main_arg1)) (m ((c : Thread nD τ).loc main_arg3)))
          (Cert.ReferenceIdeal.Read.val_main_v11 (F := Ideal) (m ((c : Thread nD τ).loc main_arg0)))
          (m ((c : Thread nD τ).loc main_arg4))
          (Cert.ReferenceIdeal.Read.val_main_v18 (F := Ideal) (m ((c : Thread nD τ).loc main_arg5)))
          (m ((c : Thread nD τ).loc main_arg6)) := by
  rw [Cert.KernelIdeal.Whole.result_eq, weighted_eq, segSum_eq, segCnt_eq, wt_eq]

end Cert.Proof.Bridge

end
-- ==== Proof.lean ====
/-
  The edge-weighted mean-aggregation layer: the kernel against its plain reference, on the extended reals.

  Both programs compute, for node `n` and output channel `o`,
      max (∑ₖ row n k · W o k + b o) 0 · node_weight n,
  where row `n` is the node's 128 attributes followed by its mean incoming edge feature: the edge features, each
  weighted by its edge's weight, summed over the edges whose target is `n`, over the number of such edges clamped
  below at one.

  The kernel does the edge weighting in a first region, block by block over the edges; the host scatter-adds the
  weighted features and a vector of ones over the targets; a second region, block by block over the nodes, forms the
  mean, joins it to the attributes, multiplies by the transposed weight matrix (a matrix product into a zero
  accumulator, after a change of format that is the identity on the extended reals), adds the bias, clamps and scales.
  The reference does the same with whole-array operations. The blocks of each region tile its result array, so each
  region leaves one whole-array function of what it was entered with (`Edge.final`, `Combine.final`); read index by
  index, both programs' results are the one function `Cert.Sage.G` of the arguments and of the same two scatter-adds
  (`Bridge.kernel_result`, `RefValue.ref_is_G`). The two sums over `k` are the same sum in the same order and no
  algebraic law beyond that is used, so the finiteness of the inputs is never opened.

  The three frames: the two kernels' are the generated frame certificates; the reference's is its generated run with
  the result dropped. The idealization rewrote nothing, so `preserves` is trivial.
-/
import proofs.«167263_j47880295416397_2_alg».proof.Defs
import proofs.«167263_j47880295416397_2_alg».proof.Proof.Gen.Kernel
import proofs.«167263_j47880295416397_2_alg».proof.Proof.Gen.Kernel.Frame
import proofs.«167263_j47880295416397_2_alg».proof.Proof.Gen.KernelIdeal
import proofs.«167263_j47880295416397_2_alg».proof.Proof.Gen.KernelIdeal.Frame
import proofs.«167263_j47880295416397_2_alg».proof.Proof.Gen.ReferenceIdeal
import proofs.«167263_j47880295416397_2_alg».proof.Proof.Gen.Pre_finite_inputs
import proofs.«167263_j47880295416397_2_alg».proof.Proof.Gen.ReferenceIdeal.Run
import proofs.«167263_j47880295416397_2_alg».proof.Proof.Gen.ReferenceIdeal.Read
import proofs.«167263_j47880295416397_2_alg».proof.Proof.RunAll
import proofs.«167263_j47880295416397_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end with the result array at `G` of the kernel's
    arguments: the kernel by its two regions' whole-array functions, the reference by its run read index by index. -/
theorem algebraic : Cert.algebraic_KernelIdeal_ReferenceIdeal := by
  intro m ρ m' ρ' _ hagree
  refine ⟨fun c => Cert.Sage.G (m ((c.tc : Thread Cert.KernelIdeal.nD Cert.KernelIdeal.τ).loc Cert.KernelIdeal.main_arg2))
      (Cert.ReferenceIdeal.Read.val_main_v7 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg3)))
      (Cert.ReferenceIdeal.Read.val_main_v11 (F := Ideal)
        (m ((c.tc : Thread Cert.KernelIdeal.nD Cert.KernelIdeal.τ).loc Cert.KernelIdeal.main_arg0)))
      (m ((c.tc : Thread Cert.KernelIdeal.nD Cert.KernelIdeal.τ).loc Cert.KernelIdeal.main_arg4))
      (Cert.ReferenceIdeal.Read.val_main_v18 (F := Ideal)
        (m ((c.tc : Thread Cert.KernelIdeal.nD Cert.KernelIdeal.τ).loc Cert.KernelIdeal.main_arg5)))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.Proof.Bridge.kernel_result m ρ c), (h c).2⟩)
      (Cert.KernelIdeal.Whole.run_out (F := Ideal) m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v26_eq, Cert.ReferenceIdeal.RefValue.ref_is_G,
      (hagree c).1, (hagree c).2.1, (hagree c).2.2.1, (hagree c).2.2.2.1, (hagree c).2.2.2.2.1,
      (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
